-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x256x4096 : Shape := ⟨4, ![16, 8, 256, 4096]⟩
abbrev S16x8x256 : Shape := ⟨3, ![16, 8, 256]⟩
abbrev S_ : Shape := ⟨0, ![]⟩

class Facts : Prop where
  bcast_S_S16x8x256x4096 : S_.BroadcastsInDim S16x8x256x4096 (![] : Fin 0 → Fin S16x8x256x4096.rank)
  reducesTo_S16x8x256x4096_S_d0_1_2_3 : S16x8x256x4096.ReducesTo [0, 1, 2, 3] S_
  h_S_ : 0 < S_.numel

variable [Facts]

def fn {F : FTy → Type} [FloatOps F] (main_arg0 : FVec F S16x8x256x4096 .f32) (main_arg1 : IVec S16x8x256 32) : IVec S_ 1 :=
  let main_v0 : FVec F S16x8x256x4096 .f32 := Host.absf main_arg0
  let main_cst : FVec F S_ .f32 := constant S_ .f32 0x7F800000#32
  let main_v1 : FVec F S16x8x256x4096 .f32 := broadcastInDim S16x8x256x4096 ![] bcast_S_S16x8x256x4096 main_cst
  let main_v2 : IVec S16x8x256x4096 1 := cmpf .olt main_v0 main_v1
  let main_c : IVec S_ 1 := constantI S_ 1 1#1
  let main_v3 : IVec S_ 1 := (fun x v => Host.reduce IntOp.andi x v reducesTo_S16x8x256x4096_S_d0_1_2_3 h_S_) main_v2 main_c
  main_v3
-- ==== Kernel.lean ====
abbrev S16x8x256x4096 : Shape := ⟨4, ![16, 8, 256, 4096]⟩
abbrev S16x8x256 : Shape := ⟨3, ![16, 8, 256]⟩
abbrev S128x256 : Shape := ⟨2, ![128, 256]⟩
abbrev S128x256x4096 : Shape := ⟨3, ![128, 256, 4096]⟩
abbrev S8x256 : Shape := ⟨2, ![8, 256]⟩
abbrev S8x256x2048 : Shape := ⟨3, ![8, 256, 2048]⟩
abbrev S1x1x2048 : Shape := ⟨3, ![1, 1, 2048]⟩
abbrev S8x256x1 : Shape := ⟨3, ![8, 256, 1]⟩
abbrev S_ : Shape := ⟨0, ![]⟩

abbrev nBuf : Space → Nat
  | .hbm => 9
  | .vmem => 4
  | .smem => 0
  | _ => 0

abbrev bufTy : (tb : Table) → Fin (tcTables nBuf tb) → BufTy
  | .hbm, ⟨0, _⟩ => ⟨S16x8x256x4096, .f32⟩
  | .hbm, ⟨1, _⟩ => ⟨S16x8x256, .i32⟩
  | .hbm, ⟨2, _⟩ => ⟨S128x256, .i32⟩
  | .hbm, ⟨3, _⟩ => ⟨S128x256x4096, .i32⟩
  | .hbm, ⟨4, _⟩ => ⟨S_, .i32⟩
  | .hbm, ⟨5, _⟩ => ⟨S128x256x4096, .i32⟩
  | .hbm, ⟨6, _⟩ => ⟨S128x256x4096, .i1⟩
  | .hbm, ⟨7, _⟩ => ⟨S128x256x4096, .i1⟩
  | .hbm, ⟨8, _⟩ => ⟨S16x8x256x4096, .i1⟩
  | .local _ .vmem, ⟨0, _⟩ => ⟨S8x256, .i32⟩
  | .local _ .vmem, ⟨1, _⟩ => ⟨S8x256, .i32⟩
  | .local _ .vmem, ⟨2, _⟩ => ⟨S8x256x2048, .i32⟩
  | .local _ .vmem, ⟨3, _⟩ => ⟨S8x256x2048, .i32⟩
  | _, _ => ⟨S16x8x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S16x8x256_S128x256 : S16x8x256.ShapeCasts S128x256
  iota_S1x1x2048_d2_w32 : S1x1x2048.Iotas .tc 32 [2]
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x256_S8x256x1 : S8x256.ShapeCasts S8x256x1
  broadcasts_S1x1x2048_S8x256x2048 : S1x1x2048.Broadcasts S8x256x2048
  broadcasts_S8x256x1_S8x256x2048 : S8x256x1.Broadcasts S8x256x2048
  inb_S8x256x2048_S8x256x2048_0_0_0 : ∀ a, (![0, 0, 0] : Fin 3 → Nat) a + S8x256x2048.size a ≤ S8x256x2048.size a
  h_S8x256x2048 : 0 < S8x256x2048.numel
  natLt_1_32 : 1 < 32
  bcast_S_S128x256x4096 : S_.BroadcastsInDim S128x256x4096 (![] : Fin 0 → Fin S128x256x4096.rank)
  shapeCasts_S128x256x4096_S16x8x256x4096 : S128x256x4096.ShapeCasts S16x8x256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S128x256.size a
  hwx0_0 : ∀ i : grid0.Coords, EltTy.bits .i32 = 32 ∨ (Rect.block (s := S128x256) S8x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x2048.size a ≤ S128x256x4096.size a
  hwx0_1 : ∀ i : grid0.Coords, EltTy.bits .i32 = 32 ∨ (Rect.block (s := S128x256x4096) S8x256x2048.size (cc0_transform_1 i) (hinb0_1 i)).WholeWords (EltTy.packing .i32)

variable [Facts₀]

abbrev win0_0 : Pipeline.Window sig grid0 :=
  Pipeline.Window.ofSpec (Memref.whole main_v0) S8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x8x256x4096 : Shape := ⟨4, ![16, 8, 256, 4096]⟩
abbrev S16x8x256 : Shape := ⟨3, ![16, 8, 256]⟩
abbrev S4096 : Shape := ⟨1, ![4096]⟩
abbrev S1x1x1x4096 : Shape := ⟨4, ![1, 1, 1, 4096]⟩
abbrev S16x8x256x1 : Shape := ⟨4, ![16, 8, 256, 1]⟩

abbrev nBuf : Space → Nat
  | .hbm => 8
  | .vmem => 0
  | .smem => 0
  | _ => 0

abbrev bufTy : (tb : Table) → Fin (tcTables nBuf tb) → BufTy
  | .hbm, ⟨0, _⟩ => ⟨S16x8x256x4096, .f32⟩
  | .hbm, ⟨1, _⟩ => ⟨S16x8x256, .i32⟩
  | .hbm, ⟨2, _⟩ => ⟨S4096, .i32⟩
  | .hbm, ⟨3, _⟩ => ⟨S1x1x1x4096, .i32⟩
  | .hbm, ⟨4, _⟩ => ⟨S16x8x256x1, .i32⟩
  | .hbm, ⟨5, _⟩ => ⟨S16x8x256x4096, .i32⟩
  | .hbm, ⟨6, _⟩ => ⟨S16x8x256x4096, .i32⟩
  | .hbm, ⟨7, _⟩ => ⟨S16x8x256x4096, .i1⟩
  | _, _ => ⟨S16x8x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S4096_S1x1x1x4096_3 : S4096.BroadcastsInDim S1x1x1x4096 (![3] : Fin 1 → Fin S1x1x1x4096.rank)
  bcast_S16x8x256_S16x8x256x1_0_1_2 : S16x8x256.BroadcastsInDim S16x8x256x1 (![0, 1, 2] : Fin 3 → Fin S16x8x256x1.rank)
  bcast_S1x1x1x4096_S16x8x256x4096_0_1_2_3 : S1x1x1x4096.BroadcastsInDim S16x8x256x4096 (![0, 1, 2, 3] : Fin 4 → Fin S16x8x256x4096.rank)
  bcast_S16x8x256x1_S16x8x256x4096_0_1_2_3 : S16x8x256x1.BroadcastsInDim S16x8x256x4096 (![0, 1, 2, 3] : Fin 4 → Fin S16x8x256x4096.rank)

variable [Facts₀]

class Facts : Prop extends Facts₀ where

variable [Facts]
-- ==== Proof.MaskSpec.lean ====
/-
  The mask as ONE function of the threshold array.

  Entry (b, h, u, k) of the result is the bit "column k exceeds the threshold of row (b, h, u)", the column and the
  threshold both read as signed 32-bit words: `gt k x`. The blocked program works on the thresholds flattened to
  128 rows (row b * 8 + h) and stores the bit widened to a 32-bit word; a later comparison of that word against zero
  gives the bit back. Two facts about words carry this: the column a block's lane holds, base + lane, is the word
  of the column's number (`col_word`), and widening a bit and asking whether the word is non-zero returns the bit
  (`ne_zero_widen`). Nothing here mentions a program.
-/
import Idealize.ShloMosaic.PureOps.Ideal
import Idealize.ShloMosaic.Lib.ValueIdx

namespace Cert.MaskSpec

open Idealize.ShloMosaic Idealize.ShloMosaic.ValueIdx

/-- "Column `k` exceeds the threshold `x`", as signed 32-bit words. -/
def gt (k : Nat) (x : BitVec 32) : BitVec 1 := IntOp.cmpi .sgt (BitVec.ofNat 32 k) x

/-- The mask over [16, 8, 256, 4096]: each entry compares its column with its row's threshold. -/
def mask (a : (⟨3, ![16, 8, 256]⟩ : Shape).Idx → BitVec 32) : (⟨4, ![16, 8, 256, 4096]⟩ : Shape).Idx → BitVec 1 :=
  fun i => gt (i 3).val (a (ix3 (i 0) (i 1) (i 2)))

/-- The same comparison over the flattened rows [128, 256, 4096], widened to a word: what the blocks store. -/
def wide (a : (⟨2, ![128, 256]⟩ : Shape).Idx → BitVec 32) : (⟨3, ![128, 256, 4096]⟩ : Shape).Idx → BitVec 32 :=
  fun i => (gt (i 2).val (a (ix2 (i 0) (i 1)))).setWidth 32

/-- `wide` read at an index whose column is `k` and whose row is `p`. -/
theorem wide_apply (a : (⟨2, ![128, 256]⟩ : Shape).Idx → BitVec 32) (i : (⟨3, ![128, 256, 4096]⟩ : Shape).Idx)
    (k : Nat) (p : (⟨2, ![128, 256]⟩ : Shape).Idx) (hk : (i 2).val = k) (hp : ix2 (i 0) (i 1) = p) :
    wide a i = (gt k (a p)).setWidth 32 := by
  subst hk hp; rfl

/-- Block `j` of 2048 columns starts at the word `j * 2048`; its lane `k` holds the word of column `j * 2048 + k`. -/
theorem col_word (j k : Nat) :
    IntOp.addi (IntOp.muli (BitVec.ofNat 32 j) 2048#32) (BitVec.ofNat 32 k) = BitVec.ofNat 32 (j * 2048 + k) := by
  show BitVec.ofNat 32 j * BitVec.ofNat 32 2048 + BitVec.ofNat 32 k = _
  rw [← BitVec.ofNat_mul, ← BitVec.ofNat_add]

/-- A bit widened to a word is non-zero exactly when the bit is set. -/
theorem ne_zero_widen (b : BitVec 1) : IntOp.cmpi .ne (b.setWidth 32) 0#32 = b := by
  by_cases h : b = 1#1
  · subst h; decide
  · rw [eq_zero_of_ne_one h]; decide

end Cert.MaskSpec
-- ==== Proof.Stored.lean ====
/-
  What the body stores, read at one entry of its block.

  At grid point (i, j) the body holds an 8 x 256 block of thresholds and writes an 8 x 256 x 2048 block of words.
  Entry (r, u, k) of that block is the bit "column j * 2048 + k exceeds threshold (r, u)", widened to a word: the
  lane counter 0 .. 2047 shifted by the block's first column j * 2048 is the column's own number (`cols_apply`),
  the thresholds are spread unchanged along the lanes (`thr_apply`), and the comparison and the widening act entry
  by entry (`stored_apply`).
-/
import proofs.«123417_j34462817583503_2_alg».proof.Proof.Gen.KernelIdeal.Skeleton
import proofs.«123417_j34462817583503_2_alg».proof.Proof.MaskSpec
import Idealize.ShloMosaic.Lib.Pipeline.Value
import Idealize.ShloMosaic.Lib.ValueIdx

noncomputable section

namespace Cert.KernelIdeal.Stored

open Idealize.ShloMosaic Idealize.ShloMosaic.ValueIdx Cert.KernelIdeal Cert.KernelIdeal.Gen Cert.MaskSpec

/-- Lane `k` of every row of block `j`'s column vector holds the word of column `j * 2048 + k`. -/
theorem cols_apply (j : Nat) (hi : S1x1x2048.Iotas .tc 32 [2]) (hb : S1x1x2048.Broadcasts S8x256x2048)
    (r : Fin 8) (u : Fin 256) (k : Fin 2048) :
    broadcastTo S8x256x2048 (addi (broadcast S1x1x2048 (Scalar.muli (BitVec.ofNat 32 j) 2048#32)) (iota .tc S1x1x2048 32 [2] hi)) hb (ix3 r u k)
      = BitVec.ofNat 32 (j * 2048 + k.val) := by
  rw [broadcastTo_apply _ hb (ix3 r u k) (ix3 (0 : Fin 1) (0 : Fin 1) k) (fun a => by
    match a with
    | ⟨0, _⟩ => rfl
    | ⟨1, _⟩ => rfl
    | ⟨2, _⟩ => rfl)]
  show IntOp.addi (IntOp.muli (BitVec.ofNat 32 j) 2048#32) (iota .tc S1x1x2048 32 [2] hi (ix3 (0 : Fin 1) (0 : Fin 1) k)) = _
  rw [iota_single_apply]
  exact col_word j k.val

/-- The thresholds, given a unit lane axis and spread along the 2048 lanes, read (r, u) at every lane. -/
theorem thr_apply (x : S8x256.Idx → BitVec 32) (h1 : S8x256.ShapeCasts S8x256) (h2 : S8x256.ShapeCasts S8x256x1)
    (hb : S8x256x1.Broadcasts S8x256x2048) (r : Fin 8) (u : Fin 256) (k : Fin 2048) :
    broadcastTo S8x256x2048 (shapeCast S8x256x1 (shapeCast S8x256 x h1) h2) hb (ix3 r u k) = x (ix2 r u) := by
  rw [broadcastTo_apply _ hb (ix3 r u k) (ix3 r u (0 : Fin 1)) (fun a => by
    match a with
    | ⟨0, _⟩ => rfl
    | ⟨1, _⟩ => rfl
    | ⟨2, _⟩ => rfl)]
  rw [shapeCast_apply _ h2 (ix3 r u (0 : Fin 1)) (ix2 r u) (by
    rw [Shape.rowMajor_val_two, Shape.rowMajor_val_three]
    show r.val * 256 + u.val = (r.val * 256 + u.val) * 1 + 0
    omega)]
  rw [shapeCast_self]

variable {F : FTy → Type} [FloatOps F]

/-- Entry (r, u, k) of what the body stores at a grid point whose column coordinate is `i 1`. -/
theorem stored_apply (i : grid0.Coords) (x : Vec F S8x256 .i32) (r : Fin 8) (u : Fin 256) (k : Fin 2048) :
    k0_pay1 i x (ix3 r u k) = (gt ((i 1).val * 2048 + k.val) (x (ix2 r u))).setWidth 32 := by
  unfold k0_pay1
  show (IntOp.cmpi .sgt
      (broadcastTo S8x256x2048 (addi (broadcast S1x1x2048 (Scalar.muli (BitVec.ofNat 32 (i 1).val) 2048#32)) (iota .tc S1x1x2048 32 [2] _)) _ (ix3 r u k))
      (broadcastTo S8x256x2048 (shapeCast S8x256x1 (shapeCast S8x256 x _) _) _ (ix3 r u k))).setWidth 32 = _
  rw [cols_apply, thr_apply]
  rfl

end Cert.KernelIdeal.Stored

end
-- ==== Proof.KernelValue.lean ====
/-
  The blocked program's result, as a function of its thresholds.

  The region finds the thresholds flattened to 128 rows (`entry_thr`). Grid point t = (i, j) reads rows 8 i .. 8 i + 7
  of them and writes back rows 8 i .. 8 i + 7, columns 2048 j .. 2048 j + 2047 of the word array; entry (r, u, k) of
  what it writes is the widened bit "column 2048 j + k exceeds threshold (8 i + r, u)", which is the whole-array
  function `wide` of the flattened thresholds read through the point's block (`flushed_eq`). The 16 x 2 blocks
  tile the array: index (x, u, y) lies in the block of the point with i = x / 8, j = y / 2048 (`cover`). So the word
  array ends at `wide` of the flattened thresholds (`final`).
-/
import proofs.«123417_j34462817583503_2_alg».proof.Proof.KernelIdealFrame
import proofs.«123417_j34462817583503_2_alg».proof.Proof.Stored
import Idealize.ShloMosaic.Lib.Pipeline.Value
import Idealize.ShloMosaic.Lib.StableHlo.Run
import Idealize.ShloMosaic.Lib.ValueIdx

set_option maxRecDepth 16384

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.KernelIdeal.Stored Cert.MaskSpec

variable {F : FTy → Type} [FloatOps F]
variable (m : (ℓ : Loc nD τ sig) → Buf (Elt F) ℓ) (ρ : Dev nD → PrngReg)

/-! ## The thresholds as the region finds them -/

/-- The one line before the region flattens the thresholds to 128 rows. -/
theorem entry_thr (c : Dev nD) :
    (V m c main_v0 : S128x256.Idx → BitVec 32)
      = shapeCast S128x256 (m ((c : Thread nD τ).loc main_arg1)) shapeCasts_S16x8x256_S128x256 := by
  show StableHlo.after hostOps0 (fun b => m (c, b)) (Proc.devRef .tc main_v0) = _
  after_results
  rfl

/-! ## What a point writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- The two index maps over the grid: the thresholds' block follows the result block's row coordinate, the result
    block's column coordinate is the point's second grid coordinate, and the middle coordinates are zero. -/
theorem idx_facts : ∀ t : Fin cfg0.N, win0_0.index t (0 : Fin 2) = win0_1.index t (0 : Fin 3)
    ∧ win0_0.index t (1 : Fin 2) = 0
    ∧ win0_1.index t (1 : Fin 3) = 0
    ∧ win0_1.index t (2 : Fin 3) = (grid0.coords t 1).val :=
  (by decide +kernel : ∀ t : Fin grid0.N, _)

/-- WHAT POINT `t` WRITES BACK is block `t` of `wide` of the flattened thresholds. -/
theorem flushed_eq (c : Dev nD) (t : Fin cfg0.N) :
    (dats m 0 c).flushed 1 t = ((cfg0.win 1).blk t).view.read (Elt F) (wide (V m c main_v0)) := by
  show (cfg0.win 1).cut (grid0.coords t) ((dats m 0 c).after 1 t) = _
  rw [after0_1]
  unfold out0_1
  rw [View.canon_unit_zero hz3]
  simp only [View.ld_unit_zero (S := S8x256) hz2]
  obtain ⟨e0, e1, e2, e3⟩ := idx_facts t
  refine funext fun (j : S8x256x2048.Idx) => ?_
  obtain ⟨r, u, k, rfl⟩ : ∃ (r : Fin 8) (u : Fin 256) (k : Fin 2048), j = ix3 r u k := ⟨j 0, j 1, j 2, eq_ix3 j⟩
  have hk : ((((cfg0.win 1).blk t).view.emb (ix3 r u k)) (2 : Fin 3)).val = (grid0.coords t 1).val * 2048 + k.val := by
    show win0_1.index t (2 : Fin 3) * 2048 + 1 * k.val = _
    omega
  have hrow : ix2 ((((cfg0.win 1).blk t).view.emb (ix3 r u k)) (0 : Fin 3)) ((((cfg0.win 1).blk t).view.emb (ix3 r u k)) (1 : Fin 3))
      = ((cfg0.win 0).blk t).view.emb (ix2 r u) := by
    funext a; apply Fin.ext
    match a with
    | ⟨0, _⟩ => show win0_1.index t (0 : Fin 3) * 8 + 1 * r.val = win0_0.index t (0 : Fin 2) * 8 + 1 * r.val; omega
    | ⟨1, _⟩ => show win0_1.index t (1 : Fin 3) * 256 + 1 * u.val = win0_0.index t (1 : Fin 2) * 256 + 1 * u.val; omega
  refine (stored_apply (grid0.coords t) (iblk m c 0 t) r u k).trans (Eq.symm ?_)
  exact wide_apply (V m c main_v0) (((cfg0.win 1).blk t).view.emb (ix3 r u k)) _ _ hk hrow

/-! ## The blocks tile the array -/

/-- An index of the word array is in point `t`'s block iff each coordinate is in the block's range on its axis. -/
theorem mem_blk (t : Fin cfg0.N) (i : S128x256x4096.Idx) :
    i ∈ ((cfg0.win 1).blk t).view.set ↔ ∀ a : Fin 3, win0_1.index t a * S8x256x2048.size a ≤ (i a).val ∧ (i a).val < win0_1.index t a * S8x256x2048.size a + S8x256x2048.size a := by
  show i ∈ ((View.whole main_v1).slice (win0_1.rect t)).set ↔ _
  rw [View.set_slice_whole, Rect.mem_set_unit]
  exact Iff.rfl

/-- Every (row block, column block) pair is some point's. -/
theorem idx_onto : ∀ (q0 : Fin 16) (q2 : Fin 2), ∃ t : Fin cfg0.N, win0_1.index t = ![q0.val, 0, q2.val] :=
  (by decide +kernel : ∀ (q0 : Fin 16) (q2 : Fin 2), ∃ t : Fin grid0.N, win0_1.index t = ![q0.val, 0, q2.val])

/-- Index (x, u, y) is written by the point with row block x / 8 and column block y / 2048. -/
theorem cover (i : S128x256x4096.Idx) :
    ∃ t : Fin cfg0.N, (cfg0.win 1).flush t = true ∧ i ∈ ((cfg0.win 1).blk t).view.set := by
  have h0 : (i 0).val < 128 := (i 0).isLt
  have h1 : (i 1).val < 256 := (i 1).isLt
  have h2 : (i 2).val < 4096 := (i 2).isLt
  obtain ⟨t, ht⟩ := idx_onto ⟨(i 0).val / 8, by omega⟩ ⟨(i 2).val / 2048, by omega⟩
  have q0 : win0_1.index t (0 : Fin 3) = (i 0).val / 8 := congrFun ht 0
  have q1 : win0_1.index t (1 : Fin 3) = 0 := congrFun ht 1
  have q2 : win0_1.index t (2 : Fin 3) = (i 2).val / 2048 := congrFun ht 2
  refine ⟨t, flush0_1 t, ?_⟩
  rw [mem_blk]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 256 ≤ (i 1).val ∧ (i 1).val < win0_1.index t (1 : Fin 3) * 256 + 256; omega
  | ⟨2, _⟩ => show win0_1.index t (2 : Fin 3) * 2048 ≤ (i 2).val ∧ (i 2).val < win0_1.index t (2 : Fin 3) * 2048 + 2048; omega

/-- THE WORD ARRAY after the region: `wide` of the flattened thresholds. -/
theorem final (c : Dev nD) : (dats m 0 c).arrAt 1 cfg0.N = wide (V m c main_v0) :=
  (dats m 0 c).arrAt_eq_of_cover 1 (wide (V m c main_v0)) (fun t _ => flushed_eq m c t) cover

end Cert.KernelIdeal.Result

end
-- ==== Proof.Unflatten.lean ====
/-
  Comparing the stored words with zero and giving the 128 rows their two coordinates back yields the mask.

  Row b * 8 + h of the flattened thresholds is row (b, h) of the thresholds, and entry (b * 8 + h, u, k) of the
  flattened result is entry (b, h, u, k) of the result: both are the statement that a change of shape keeps the
  row-major position. In between, a widened bit compared against the zero word is the bit (`ne_zero_widen`).
-/
import proofs.«123417_j34462817583503_2_alg».proof.Proof.MaskSpec
import Idealize.ShloMosaic.Lib.Pipeline.Value

namespace Cert.MaskSpec

open Idealize.ShloMosaic Idealize.ShloMosaic.ValueIdx

/-- The thresholds flattened to 128 rows, compared blockwise and widened (`wide`), then compared against zero and
    unflattened, are the mask of the thresholds. -/
theorem unflatten_ne_zero (a : (⟨3, ![16, 8, 256]⟩ : Shape).Idx → BitVec 32)
    (h23 : (⟨3, ![16, 8, 256]⟩ : Shape).ShapeCasts ⟨2, ![128, 256]⟩)
    (hb : (⟨0, ![]⟩ : Shape).BroadcastsInDim ⟨3, ![128, 256, 4096]⟩ (![] : Fin 0 → Fin 3))
    (h34 : (⟨3, ![128, 256, 4096]⟩ : Shape).ShapeCasts ⟨4, ![16, 8, 256, 4096]⟩) :
    shapeCast ⟨4, ![16, 8, 256, 4096]⟩
        (cmpi .ne (wide (shapeCast ⟨2, ![128, 256]⟩ a h23))
          (broadcastInDim ⟨3, ![128, 256, 4096]⟩ ![] hb (constantI ⟨0, ![]⟩ 32 0#32))) h34
      = mask a := by
  funext i
  obtain ⟨b, h, u, k, rfl⟩ : ∃ (b : Fin 16) (h : Fin 8) (u : Fin 256) (k : Fin 4096), i = ix4 b h u k :=
    ⟨i 0, i 1, i 2, i 3, eq_ix4 i⟩
  have hb16 : b.val < 16 := b.isLt
  have hh8 : h.val < 8 := h.isLt
  have hrow : b.val * 8 + h.val < 128 := by omega
  rw [shapeCast_apply _ h34 (ix4 b h u k) (ix3 (⟨b.val * 8 + h.val, hrow⟩ : Fin 128) u k) (by
    rw [Shape.rowMajor_val_three, Shape.rowMajor_val_four]
    rfl)]
  show IntOp.cmpi .ne (wide (shapeCast ⟨2, ![128, 256]⟩ a h23) (ix3 (⟨b.val * 8 + h.val, hrow⟩ : Fin 128) u k)) 0#32 = _
  rw [wide_apply _ _ k.val (ix2 (⟨b.val * 8 + h.val, hrow⟩ : Fin 128) u) rfl rfl, ne_zero_widen]
  rw [shapeCast_apply _ h23 (ix2 (⟨b.val * 8 + h.val, hrow⟩ : Fin 128) u) (ix3 b h u) (by
    rw [Shape.rowMajor_val_two, Shape.rowMajor_val_three]
    rfl)]
  rfl

end Cert.MaskSpec
-- ==== Proof.KernelResult.lean ====
/-
  From the word array to the result, and the run with the result named.

  After the region the program compares every stored word against zero and gives the 128 rows their two
  coordinates back (`after_tail`: the lines after the region, applied to the word array the region left). The word
  array is `wide` of the flattened thresholds (`tail_words`, from the blocks' cover), so the result buffer ends at the
  mask of the thresholds (`result_eq`, by `unflatten_ne_zero`). `run` re-posts the frame run: the result buffer at
  the mask, the two arguments as launched.
-/
import proofs.«123417_j34462817583503_2_alg».proof.Proof.KernelValue
import proofs.«123417_j34462817583503_2_alg».proof.Proof.Unflatten
import Idealize.ShloMosaic.Lib.Pipeline.Value
import Idealize.ShloMosaic.Lib.StableHlo.Run
import Idealize.ShloMosaic.Lib.ValueIdx

set_option maxRecDepth 16384

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.MaskSpec

variable {F : FTy → Type} [FloatOps F]
variable (m : (ℓ : Loc nD τ sig) → Buf (Elt F) ℓ) (ρ : Dev nD → PrngReg)

/-! ## The lines after the region -/

/-- The lines after the region — a zero word spread over the array, the comparison against it, a copy, the change of
    shape — leave in the result buffer the word array compared against zero and unflattened. -/
theorem after_tail (c : Dev nD) :
    (Pipeline.afterTail₀ cfgs (dats m) 0 (V0 m) [hostOps1] c main_v5 : S16x8x256x4096.Idx → BitVec 1)
      = shapeCast S16x8x256x4096
          (cmpi .ne (Pipeline.withArrays spec0 c (V0 m c) (fun w => (dats m 0 c).arrAt w cfg0.N) (Proc.devRef .tc main_v1))
            (broadcastInDim S128x256x4096 ![] bcast_S_S128x256x4096 (constantI S_ 32 0#32)))
          shapeCasts_S128x256x4096_S16x8x256x4096 := by
  unfold Pipeline.afterTail₀
  show StableHlo.after hostOps1 _ (Proc.devRef .tc main_v5) = _
  after_results
  rfl

/-- The word array the region leaves is `wide` of the thresholds flattened to 128 rows. -/
theorem tail_words (c : Dev nD) :
    (Pipeline.withArrays spec0 c (V0 m c) (fun w => (dats m 0 c).arrAt w cfg0.N) (Proc.devRef .tc main_v1) : S128x256x4096.Idx → BitVec 32)
      = wide (shapeCast S128x256 (m ((c : Thread nD τ).loc main_arg1)) shapeCasts_S16x8x256_S128x256) :=
  (Pipeline.withArrays_arr spec0 launch0.win.arr_inj c _ _ 1).trans ((final m c).trans (congrArg wide (entry_thr m c)))

/-- The result buffer after the lines that follow the region is the mask of the thresholds. -/
theorem result_eq (c : Dev nD) :
    (Pipeline.afterTail₀ cfgs (dats m) 0 (V0 m) [hostOps1] c main_v5 : S16x8x256x4096.Idx → BitVec 1)
      = mask (m ((c : Thread nD τ).loc main_arg1)) := by
  rw [after_tail, tail_words]
  exact unflatten_ne_zero _ _ _ _

/-! ## The run, with the result named -/

/-- Every weakly fair execution ends with the result buffer at the mask of the thresholds and the arguments unchanged. -/
theorem run : θ_run defs (onTc (τ := τ) (main (F := F))) ⟨m, fun _ => 0, ρ⟩ fun r => ∀ c : Dev nD,
      r.2.mem ((c : Thread nD τ).loc main_v5) = mask (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v5 (Pipeline.mem_restRefs_of main_v5 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.RefValue.lean ====
/-
  The plain program's result is the mask of its thresholds.

  It builds the column numbers 0 .. 4095 along the last axis, spreads them over all rows, spreads each row's
  threshold along the columns, and compares: entry (b, h, u, k) is "column k exceeds threshold (b, h, u)" on signed
  32-bit words. Read one operation at a time, the spreads only rename the index: the column vector is read at
  coordinate k, the thresholds at (b, h, u).
-/
import proofs.«123417_j34462817583503_2_alg».proof.Proof.Gen.ReferenceIdeal.Read
import proofs.«123417_j34462817583503_2_alg».proof.Proof.MaskSpec
import Idealize.ShloMosaic.Lib.ValueIdx

noncomputable section

namespace Cert.ReferenceIdeal.RefValue

open Idealize.ShloMosaic Idealize.ShloMosaic.ValueIdx
open Cert.ReferenceIdeal Cert.ReferenceIdeal.Gen Cert.ReferenceIdeal.Read Cert.MaskSpec

variable {F : FTy → Type} [FloatOps F]

/-- The last stage of the plain program, as a function of the thresholds, is the mask. -/
theorem ref_is_mask (x : S16x8x256.Idx → BitVec 32) : val_main_v5 (F := F) x = mask x := by
  funext i
  rw [val_main_v5_apply, val_main_v3_apply, val_main_v1_apply, val_main_v0_apply, val_main_v4_apply, val_main_v2_apply]
  have e : idx_main_v2 (idx_main_v4 i) = ix3 (i 0) (i 1) (i 2) := funext fun a => Fin.ext (by
    match a with
    | ⟨0, _⟩ => rfl
    | ⟨1, _⟩ => rfl
    | ⟨2, _⟩ => rfl)
  rw [e]
  rfl

end Cert.ReferenceIdeal.RefValue

end
-- ==== Proof.lean ====
/-
  The blocked mask program against the plain one: result[b, h, u, k] = (k > m_top[b, h, u]).

  Both programs compare, on signed 32-bit words, the column number k with the threshold of row (b, h, u); the
  float argument is never read and the result holds no float, so nothing depends on how floats are read and the
  precondition is never opened. The blocked program flattens the 16 x 8 leading axes to 128 rows, lets each of its
  16 x 2 grid points write the widened comparison bits of 8 rows and 2048 columns (the column being the block's
  first column plus the lane number), then compares the stored words against zero and unflattens; the plain program
  compares a column vector spread over the rows with the thresholds spread along the columns. Each is shown to end
  with the result buffer at `MaskSpec.mask` of the thresholds (`KernelIdeal.Result.run`, `RefValue.ref_is_mask`
  over the plain program's run), which is the algebraic claim. The frames of the two blocked programs are the frame
  run of the pipeline; the plain program's frame is its run with the result dropped. The idealization rewrote no
  operation, so there is nothing to preserve.
-/
import proofs.«123417_j34462817583503_2_alg».proof.Defs
import proofs.«123417_j34462817583503_2_alg».proof.Proof.Gen.Kernel
import proofs.«123417_j34462817583503_2_alg».proof.Proof.Gen.KernelIdeal
import proofs.«123417_j34462817583503_2_alg».proof.Proof.Gen.ReferenceIdeal
import proofs.«123417_j34462817583503_2_alg».proof.Proof.Gen.Pre_finite_inputs
import proofs.«123417_j34462817583503_2_alg».proof.Proof.Gen.ReferenceIdeal.Run
import proofs.«123417_j34462817583503_2_alg».proof.Proof.Gen.ReferenceIdeal.Read
import proofs.«123417_j34462817583503_2_alg».proof.Proof.KernelFrame
import proofs.«123417_j34462817583503_2_alg».proof.Proof.KernelIdealFrame
import proofs.«123417_j34462817583503_2_alg».proof.Proof.KernelResult
import proofs.«123417_j34462817583503_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result at the mask of thresholds that agree. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_is_mask, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
